-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S50000x512 : Shape := ⟨2, ![50000, 512]⟩
abbrev S50000 : Shape := ⟨1, ![50000]⟩
abbrev S1 : Shape := ⟨1, ![1]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S50000 : S_.BroadcastsInDim S50000 (![] : Fin 0 → Fin S50000.rank)
  reducesTo_S50000_S_d0 : S50000.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S50000 1) : IVec S_ 1 :=
  let main_c_5 : IVec S_ 1 := constantI S_ 1 1#1
  let main_v17 : IVec S_ 1 := (fun x v => Host.reduce IntOp.andi x v reducesTo_S50000_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S2048x512 .f32) (main_arg1 : FVec F S50000x512 .f32) (main_arg2 : FVec F S50000 .f32) (main_arg3 : FVec F S50000 .f32) (main_arg4 : FVec F S1 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S50000x512 .f32 := Host.absf main_arg1
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_v9 : FVec F S50000 .f32 := Host.absf main_arg2
  let main_cst_2 : FVec F S_ .f32 := constant S_ .f32 0x7F800000#32
  let main_v10 : FVec F S50000 .f32 := broadcastInDim S50000 ![] bcast_S_S50000 main_cst_2
  let main_v11 : IVec S50000 1 := cmpf .olt main_v9 main_v10
  let main_c_3 : IVec S_ 1 := constantI S_ 1 1#1
  let main_v12 : IVec S_ 1 := (fun x v => Host.reduce IntOp.andi x v reducesTo_S50000_S_d0 h_S_) main_v11 main_c_3
  let main_v13 : IVec S_ 1 := andi main_v8 main_v12
  let main_v14 : FVec F S50000 .f32 := Host.absf main_arg3
  let main_cst_4 : FVec F S_ .f32 := constant S_ .f32 0x7F800000#32
  let main_v15 : FVec F S50000 .f32 := broadcastInDim S50000 ![] bcast_S_S50000 main_cst_4
  let main_v16 : IVec S50000 1 := cmpf .olt main_v14 main_v15
  fn_part1 (F := F) main_arg4 main_v13 main_v16
-- ==== Kernel.lean ====
abbrev S2048x512 : Shape := ⟨2, ![2048, 512]⟩
abbrev S50000x512 : Shape := ⟨2, ![50000, 512]⟩
abbrev S50000 : Shape := ⟨1, ![50000]⟩
abbrev S1 : Shape := ⟨1, ![1]⟩
abbrev S_ : Shape := ⟨0, ![]⟩
abbrev S2048 : Shape := ⟨1, ![2048]⟩
abbrev S2048x1 : Shape := ⟨2, ![2048, 1]⟩
abbrev S51200x512 : Shape := ⟨2, ![51200, 512]⟩
abbrev S51200 : Shape := ⟨1, ![51200]⟩
abbrev S1x51200 : Shape := ⟨2, ![1, 51200]⟩
abbrev S1024x512 : Shape := ⟨2, ![1024, 512]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩

abbrev nBuf : Space → Nat
  | .hbm => 38
  | .vmem => 13
  | .smem => 0
  | _ => 0

abbrev bufTy : (tb : Table) → Fin (tcTables nBuf tb) → BufTy
  | .hbm, ⟨0, _⟩ => ⟨S2048x512, .f32⟩
  | .hbm, ⟨1, _⟩ => ⟨S50000x512, .f32⟩
  | .hbm, ⟨2, _⟩ => ⟨S50000, .f32⟩
  | .hbm, ⟨3, _⟩ => ⟨S50000, .f32⟩
  | .hbm, ⟨4, _⟩ => ⟨S1, .f32⟩
  | .hbm, ⟨5, _⟩ => ⟨S2048x512, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S50000x512, .f32⟩
  | .hbm, ⟨13, _⟩ => ⟨S_, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000, .f32⟩
  | .hbm, ⟨19, _⟩ => ⟨S2048x512, .bf16⟩
  | .hbm, ⟨20, _⟩ => ⟨S50000x512, .bf16⟩
  | .hbm, ⟨21, _⟩ => ⟨S_, .i32⟩
  | .hbm, ⟨22, _⟩ => ⟨S_, .bf16⟩
  | .hbm, ⟨23, _⟩ => ⟨S51200x512, .bf16⟩
  | .hbm, ⟨24, _⟩ => ⟨S_, .i32⟩
  | .hbm, ⟨25, _⟩ => ⟨S_, .f32⟩
  | .hbm, ⟨26, _⟩ => ⟨S51200, .f32⟩
  | .hbm, ⟨27, _⟩ => ⟨S1x51200, .f32⟩
  | .hbm, ⟨28, _⟩ => ⟨S_, .i32⟩
  | .hbm, ⟨29, _⟩ => ⟨S_, .f32⟩
  | .hbm, ⟨30, _⟩ => ⟨S51200, .f32⟩
  | .hbm, ⟨31, _⟩ => ⟨S1x51200, .f32⟩
  | .hbm, ⟨32, _⟩ => ⟨S2048x1, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_call0_v0 : Ref sig .tc := ⟨.hbm, 22, rfl⟩
abbrev main_v12 : Ref sig .tc := ⟨.hbm, 23, rfl⟩
abbrev main_c_3 : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v28 : BitVec 1 := Scalar.cmpi .eq arg1 c24_i32
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  reducesTo_S50000x512_S50000_d1 : S50000x512.ReducesTo [1] S50000
  bcast_S_S50000 : S_.BroadcastsInDim S50000 (![] : Fin 0 → Fin S50000.rank)
  bitsLt_bf16_f32 : FTy.bits .bf16 < FTy.bits .f32
  pads_S50000x512_S51200x512_012000_000 : S50000x512.Pads (![0, 0] : Fin 2 → Nat) ![1200, 0] ![0, 0] S51200x512
  pads_S50000_S51200_012000 : S50000.Pads (![0] : Fin 1 → Nat) ![1200] ![0] S51200
  shapeCasts_S51200_S1x51200 : S51200.ShapeCasts S1x51200
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1024x1_S1024x2048 : S1024x1.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  shapeCasts_S2048x1_S2048 : S2048x1.ShapeCasts S2048
  shapeCasts_S1_S_ : S1.ShapeCasts S_
  bcast_S_S2048 : S_.BroadcastsInDim S2048 (![] : Fin 0 → Fin S2048.rank)
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x512.size a
  hwx0_0 : ∀ i : grid0.Coords, EltTy.bits .bf16 = 32 ∨ (Rect.block (s := S2048x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S51200x512.size a
  hwx0_1 : ∀ i : grid0.Coords, EltTy.bits .bf16 = 32 ∨ (Rect.block (s := S51200x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .f32 = 32 ∨ (Rect.block (s := S2048x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x51200.size a
  hwx0_3 : ∀ i : grid0.Coords, EltTy.bits .f32 = 32 ∨ (Rect.block (s := S1x51200) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x51200.size a
  hwx0_4 : ∀ i : grid0.Coords, EltTy.bits .f32 = 32 ∨ (Rect.block (s := S1x51200) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S2048x1.size a
  hwx0_5 : ∀ i : grid0.Coords, EltTy.bits .f32 = 32 ∨ (Rect.block (s := S2048x1) S1024x1.size (cc0_transform_5 i) (hinb0_5 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v10) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x512 : Shape := ⟨2, ![2048, 512]⟩
abbrev S50000x512 : Shape := ⟨2, ![50000, 512]⟩
abbrev S50000 : Shape := ⟨1, ![50000]⟩
abbrev S1 : Shape := ⟨1, ![1]⟩
abbrev S_ : Shape := ⟨0, ![]⟩
abbrev S2048 : Shape := ⟨1, ![2048]⟩
abbrev S2048x1 : Shape := ⟨2, ![2048, 1]⟩
abbrev S2048x50000 : Shape := ⟨2, ![2048, 50000]⟩
abbrev S1x50000 : Shape := ⟨2, ![1, 50000]⟩

abbrev nBuf : Space → Nat
  | .hbm => 35
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S50000x512, .f32⟩
  | .hbm, ⟨2, _⟩ => ⟨S50000, .f32⟩
  | .hbm, ⟨3, _⟩ => ⟨S50000, .f32⟩
  | .hbm, ⟨4, _⟩ => ⟨S1, .f32⟩
  | .hbm, ⟨5, _⟩ => ⟨S2048x512, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S50000x512, .f32⟩
  | .hbm, ⟨10, _⟩ => ⟨S_, .f32⟩
  | .hbm, ⟨11, _⟩ => ⟨S50000, .f32⟩
  | .hbm, ⟨12, _⟩ => ⟨S2048x50000, .f32⟩
  | .hbm, ⟨13, _⟩ => ⟨S1x50000, .f32⟩
  | .hbm, ⟨14, _⟩ => ⟨S2048x50000, .f32⟩
  | .hbm, ⟨15, _⟩ => ⟨S2048x50000, .f32⟩
  | .hbm, ⟨16, _⟩ => ⟨S2048x50000, .f32⟩
  | .hbm, ⟨17, _⟩ => ⟨S_, .f32⟩
  | .hbm, ⟨18, _⟩ => ⟨S2048x50000, .f32⟩
  | .hbm, ⟨19, _⟩ => ⟨S2048x50000, .f32⟩
  | .hbm, ⟨20, _⟩ => ⟨S2048x50000, .f32⟩
  | .hbm, ⟨21, _⟩ => ⟨S2048x50000, .f32⟩
  | .hbm, ⟨22, _⟩ => ⟨S_, .f32⟩
  | .hbm, ⟨23, _⟩ => ⟨S2048x50000, .f32⟩
  | .hbm, ⟨24, _⟩ => ⟨S2048x50000, .f32⟩
  | .hbm, ⟨25, _⟩ => ⟨S2048x50000, .f32⟩
  | .hbm, ⟨26, _⟩ => ⟨S50000, .f32⟩
  | .hbm, ⟨27, _⟩ => ⟨S1x50000, .f32⟩
  | .hbm, ⟨28, _⟩ => ⟨S2048x50000, .f32⟩
  | .hbm, ⟨29, _⟩ => ⟨S2048x50000, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  reducesTo_S50000x512_S50000_d1 : S50000x512.ReducesTo [1] S50000
  bcast_S50000_S1x50000_1 : S50000.BroadcastsInDim S1x50000 (![1] : Fin 1 → Fin S1x50000.rank)
  bcast_S2048x1_S2048x50000_0_1 : S2048x1.BroadcastsInDim S2048x50000 (![0, 1] : Fin 2 → Fin S2048x50000.rank)
  bcast_S1x50000_S2048x50000_0_1 : S1x50000.BroadcastsInDim S2048x50000 (![0, 1] : Fin 2 → Fin S2048x50000.rank)
  bcast_S_S2048x50000 : S_.BroadcastsInDim S2048x50000 (![] : Fin 0 → Fin S2048x50000.rank)
  reducesTo_S2048x50000_S2048_d1 : S2048x50000.ReducesTo [1] S2048
  bcast_S1_S2048_0 : S1.BroadcastsInDim S2048 (![0] : Fin 1 → Fin S2048.rank)
  dot_S2048x512_S50000x512_S2048x50000_1_1_0_0_n_n_wf : DotDims.WF S2048x512 S50000x512 S2048x50000 [1] [1] [0] [0] [] []

variable [Facts₀]

def dot_S2048x512_S50000x512_S2048x50000_1_1_0_0_n_n : DotDims S2048x512 S50000x512 S2048x50000 where
  lhsContracting := [1]
  rhsContracting := [1]
  lhsNonContracting := [0]
  rhsNonContracting := [0]
  lhsBatch := []
  rhsBatch := []
  wf := dot_S2048x512_S50000x512_S2048x50000_1_1_0_0_n_n_wf

class Facts : Prop extends Facts₀ where

variable [Facts]
-- ==== Proof.LibRowsDot.lean ====
/-
  A product of two matrices along their rows, read at an index, at the ideal values.

  For a left operand of shape [R, K] and a right operand of shape [C, K] contracted over the second axis of both
  (no batch axis: the product of the left operand with the transpose of the right), the kernel's matrix product
  into a zero accumulator and the host's `dot_general` are both, at output index (r, c), the sum over k of
  left (r, k) times right (c, k).  The extents R, K, C are symbolic: the same lemmas serve a block of rows of each
  operand and the whole arrays.
-/
import Idealize.ShloMosaic.PureOps.Ideal.Laws
import Idealize.ShloMosaic.Lib.ValueIdx

noncomputable section

namespace Cert.Lib.RowsDot

open Idealize.ShloMosaic Idealize.ShloMosaic.ValueIdx
open scoped BigOperators

variable {R K C : Nat}

/-- The left operand's index (r, k) for output index `j` = (r, c) and contraction position `k`. -/
abbrev leftIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (c, k) for output index `j` = (r, c) and contraction position `k`. -/
abbrev rightIdx (j : (⟨2, ![R, C]⟩ : Shape).Idx) (k : Fin K) : (⟨2, ![C, K]⟩ : Shape).Idx := fun a => match a with
  | ⟨0, _⟩ => ⟨(j 1).val, (j 1).isLt⟩
  | ⟨1, _⟩ => ⟨k.val, k.isLt⟩

/-- The product of an [R, K] array with the transpose of a [C, K] array, as a function of the output index. -/
def rowsDot (x : (⟨2, ![R, K]⟩ : Shape).Idx → EReal) (w : (⟨2, ![C, K]⟩ : Shape).Idx → EReal) :
    (⟨2, ![R, C]⟩ : Shape).Idx → EReal :=
  fun j => ∑ k : Fin K, x (leftIdx j k) * w (rightIdx j k)

/-- At coordinates: the sum over k of left (r, k) times right (c, k). -/
theorem rowsDot_ix2 (x : (⟨2, ![R, K]⟩ : Shape).Idx → EReal) (w : (⟨2, ![C, K]⟩ : Shape).Idx → EReal) (r : Fin R) (c : Fin C) :
    rowsDot x w (ix2 r c) = ∑ k : Fin K, x (ix2 r k) * w (ix2 c k) := by
  unfold rowsDot
  refine Finset.sum_congr rfl fun k _ => ?_
  have el : leftIdx (K := K) (ix2 r c) k = ix2 r k := funext fun a => Fin.ext (by match a with | ⟨0, _⟩ => rfl | ⟨1, _⟩ => rfl)
  have er : rightIdx (K := K) (ix2 r c) k = ix2 c k := funext fun a => Fin.ext (by match a with | ⟨0, _⟩ => rfl | ⟨1, _⟩ => rfl)
  rw [el, er]

theorem lhs0 (j : (⟨2, ![R, C]⟩ : Shape).Idx) (q : (DotDims.transposedRhs R K C).contr.Idx) :
    ((DotDims.transposedRhs R K C).lhsIdx j q 0).val = (j 0).val := by
  unfold DotDims.lhsIdx
  rw [dif_neg (show ¬(0 : Fin 2) ∈ (DotDims.transposedRhs R K C).lhsBatch from List.not_mem_nil),
    dif_pos (show (0 : Fin 2) ∈ (DotDims.transposedRhs R K C).lhsNonContracting from List.mem_singleton.mpr rfl)]
  rfl
theorem lhs1 (j : (⟨2, ![R, C]⟩ : Shape).Idx) (q : (DotDims.transposedRhs R K C).contr.Idx) :
    ((DotDims.transposedRhs R K C).lhsIdx j q 1).val = (q ⟨0, (show 0 < (DotDims.transposedRhs R K C).contr.rank from Nat.one_pos)⟩).val :=
  (DotDims.transposedRhs R K C).lhsIdx_val_of_single rfl j q
theorem rhs0 (j : (⟨2, ![R, C]⟩ : Shape).Idx) (q : (DotDims.transposedRhs R K C).contr.Idx) :
    ((DotDims.transposedRhs R K C).rhsIdx j q 0).val = (j 1).val := by
  unfold DotDims.rhsIdx
  rw [dif_neg (show ¬(0 : Fin 2) ∈ (DotDims.transposedRhs R K C).rhsBatch from List.not_mem_nil),
    dif_pos (show (0 : Fin 2) ∈ (DotDims.transposedRhs R K C).rhsNonContracting from List.mem_singleton.mpr rfl)]
  rfl
theorem rhs1 (j : (⟨2, ![R, C]⟩ : Shape).Idx) (q : (DotDims.transposedRhs R K C).contr.Idx) :
    ((DotDims.transposedRhs R K C).rhsIdx j q 1).val = (q ⟨0, (show 0 < (DotDims.transposedRhs R K C).contr.rank from Nat.one_pos)⟩).val :=
  (DotDims.transposedRhs R K C).rhsIdx_val_of_single rfl j q

/-- The contraction's sum, re-indexed by the one contracted coordinate. -/
theorem sum_rows (x : (⟨2, ![R, K]⟩ : Shape).Idx → EReal) (w : (⟨2, ![C, K]⟩ : Shape).Idx → EReal)
    (j : (⟨2, ![R, C]⟩ : Shape).Idx) :
    ∑ q : (DotDims.transposedRhs R K C).contr.Idx,
        x ((DotDims.transposedRhs R K C).lhsIdx j q) * w ((DotDims.transposedRhs R K C).rhsIdx j q)
      = rowsDot x w j := by
  unfold rowsDot
  rw [← Equiv.sum_comp (contrEquiv1 (DotDims.transposedRhs R K C) K rfl rfl).symm]
  refine Finset.sum_congr rfl fun k _ => ?_
  have hk := contrEquiv1_symm_val (DotDims.transposedRhs R K C) K rfl rfl k
  have el : (DotDims.transposedRhs R K C).lhsIdx j ((contrEquiv1 (DotDims.transposedRhs R K C) K rfl rfl).symm k) = leftIdx j k :=
    funext fun a => Fin.ext (by
      match a with
      | ⟨0, _⟩ => exact lhs0 _ _
      | ⟨1, _⟩ => exact (lhs1 _ _).trans hk)
  have er : (DotDims.transposedRhs R K C).rhsIdx j ((contrEquiv1 (DotDims.transposedRhs R K C) K rfl rfl).symm k) = rightIdx j k :=
    funext fun a => Fin.ext (by
      match a with
      | ⟨0, _⟩ => exact rhs0 _ _
      | ⟨1, _⟩ => exact (rhs1 _ _).trans hk)
  rw [el, er]

/-- The kernel's matrix product into the zero accumulator, at an index. -/
theorem matmul_zero_apply {φ₁ φ₂ : FTy} (d : DotDims ⟨2, ![R, K]⟩ ⟨2, ![C, K]⟩ ⟨2, ![R, C]⟩)
    (hd : d = DotDims.transposedRhs R K C) (prec : Option ContractPrecision)
    (x : FVec Ideal ⟨2, ![R, K]⟩ φ₁) (w : FVec Ideal ⟨2, ![C, K]⟩ φ₂) (j : (⟨2, ![R, C]⟩ : Shape).Idx) :
    FloatOps.matmul d prec x w (constant ⟨2, ![R, C]⟩ .f32 0x00000000#32) j = rowsDot x w j := by
  subst hd
  rw [Ideal.matmul_constant_zero_apply]
  exact sum_rows x w j

/-- The host's `dot_general`, at an index. -/
theorem dotGeneral_apply {φ₁ φ₂ : FTy} (d : DotDims ⟨2, ![R, K]⟩ ⟨2, ![C, K]⟩ ⟨2, ![R, C]⟩)
    (hd : d = DotDims.transposedRhs R K C) (prec : Option ContractPrecision) (sched : HostSchedule)
    (x : FVec Ideal ⟨2, ![R, K]⟩ φ₁) (w : FVec Ideal ⟨2, ![C, K]⟩ φ₂) (j : (⟨2, ![R, C]⟩ : Shape).Idx) :
    FloatOps.dotGeneral d prec sched x w j = rowsDot x w j := by
  subst hd
  rw [Ideal.dotGeneral_apply]
  exact sum_rows x w j

end Cert.Lib.RowsDot

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.RbfPayload.lean ====
/-
  What one grid step adds to the running row sums, read entry by entry at the ideal values.

  At a grid step the body holds a block of 1024 query rows (x), a block of 2048 reference rows (d), the column of
  half squared norms of the query rows (hx), the row of half squared norms of the reference rows (hd), the row of
  weights (w) and the running sums (acc). It stores, for row r,
      acc r + sum over the 2048 columns k of  w k * exp( <x_r, d_k> - hx r - hd k ),
  where <x_r, d_k> is the product of the two blocks contracted along their second axis. The first step stores into
  running sums that were just set to zero.
-/
import proofs.«109297_j51462298140953_2_alg».proof.Proof.Gen.KernelIdeal.Skeleton
import proofs.«109297_j51462298140953_2_alg».proof.Proof.LibRowsDot
import proofs.«109297_j51462298140953_2_alg».proof.Proof.LibRowLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RbfBody

open Cert.KernelIdeal Cert.KernelIdeal.Gen Idealize.ShloMosaic Idealize.ShloMosaic.ValueIdx Cert.Lib
open Cert.KernelIdeal.MvnKernel (broadcastTo_a1_ab_apply shapeCast_a_a1_apply multiReduction_add_row)

/-- The contraction of the body's matrix product is the one along the second axis of both blocks. -/
theorem dot_eq : dot_S1024x512_S2048x512_S1024x2048_1_1_0_0_n_n = DotDims.transposedRhs 1024 512 2048 := rfl

/-- The block the first step stores before accumulating is zero everywhere. -/
theorem pay1_apply (j : S1024x1.Idx) : k0_pay1 (F := Ideal) j = 0 := by
  unfold k0_pay1
  rw [shapeCast_self]
  exact Ideal.ofBits_zero_f32

/-- One term of a row's sum: the weight of column k times the exponential of the score of (r, k). -/
def term (x : FVec Ideal S1024x512 .bf16) (d : FVec Ideal S2048x512 .bf16) (hx : FVec Ideal S1024x1 .f32)
    (hd w : FVec Ideal S1x2048 .f32) (r : Fin 1024) (k : Fin 2048) : EReal :=
  w (ix2 (0 : Fin 1) k) * Ideal.exp ((RowsDot.rowsDot x d (ix2 r k) - hx (ix2 r (0 : Fin 1))) - hd (ix2 (0 : Fin 1) k))

/-- The stored block at row r: the running sum plus the 2048 terms of the row. -/
theorem pay2_apply (x : FVec Ideal S1024x512 .bf16) (d : FVec Ideal S2048x512 .bf16) (hx : FVec Ideal S1024x1 .f32)
    (hd w : FVec Ideal S1x2048 .f32) (acc : FVec Ideal S1024x1 .f32) (r : Fin 1024) (u : Fin 1) :
    k0_pay2 (F := Ideal) x d hx hd w acc (ix2 r u) = acc (ix2 r u) + ∑ k : Fin 2048, term x d hx hd w r k := by
  unfold k0_pay2
  simp only [shapeCast_self]
  refine congrArg (fun z => acc (ix2 r u) + z) ?_
  refine (shapeCast_a_a1_apply _ shapeCasts_S1024_S1024x1 r u).trans ?_
  refine (multiReduction_add_row _ _ reduces_S1024x2048_S1024 (.inl rfl) rfl r).trans ?_
  refine Finset.sum_congr rfl fun k _ => ?_
  unfold term
  refine congrArg₂ (fun a b => a * Ideal.exp b) ?_ ?_
  · exact broadcastTo_1b_ab_apply w broadcasts_S1x2048_S1024x2048 r k
  · refine congrArg₂ (fun a b => a - b) ?_ ?_
    · refine congrArg₂ (fun a b => a - b) ?_ ?_
      · exact RowsDot.matmul_zero_apply _ dot_eq none x d (ix2 r k)
      · exact broadcastTo_a1_ab_apply hx broadcasts_S1024x1_S1024x2048 r k
    · exact broadcastTo_1b_ab_apply hd broadcasts_S1x2048_S1024x2048 r k

end Cert.KernelIdeal.RbfBody

end
-- ==== Proof.RbfSteps.lean ====
/-
  What each kind of grid step leaves in the running sums and in the output block, as the stored block of the step.

  A step in the first column of the grid sets the running sums to zero and then stores the step's block computed from
  that zero; every other step stores the step's block computed from what the step before left; a step in the last
  column also copies the running sums it has just stored into the output block.
-/
import proofs.«109297_j51462298140953_2_alg».proof.Proof.Gen.KernelIdeal.Frame
import Idealize.ShloMosaic.Lib.Pipeline.Value
import Idealize.ShloMosaic.Lib.Tactic

noncomputable section

namespace Cert.KernelIdeal.RbfSteps

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A step strictly inside a row of the grid: the running sums become the step's block over what they held. -/
theorem sums_mid (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S2048x512 .bf16) (x2 : Vec F S1024x1 .f32) (x3 : Vec F S1x2048 .f32) (x4 : Vec F S1x2048 .f32) (xs0 : Vec F S1024x1 .f32) :
    sout0_B_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, View.ld_unit_zero (S := S1024x512) hz, View.ld_unit_zero (S := S2048x512) hz, View.ld_unit_zero (S := S1024x1) hz, View.ld_unit_zero (S := S1x2048) hz]

/-- A step in the last column: the running sums become the step's block over what they held, -/
theorem sums_last (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S2048x512 .bf16) (x2 : Vec F S1024x1 .f32) (x3 : Vec F S1x2048 .f32) (x4 : Vec F S1x2048 .f32) (xs0 : Vec F S1024x1 .f32) :
    sout0_C_0 c i arg2 harg2 arg3 harg3 arg4 harg4 arg5 harg5 arg6 harg6 arg7 harg7 arg8 harg8 hc0 hc1 x0 x1 x2 x3 x4 xs0 = k0_pay2 x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S1024x512) hz, View.ld_unit_zero (S := S2048x512) hz, View.ld_unit_zero (S := S1024x1) hz, View.ld_unit_zero (S := S1x2048) hz]

/-- and the output block is a copy of them. -/
theorem out_last (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S2048x512 .bf16) (x2 : Vec F S1024x1 .f32) (x3 : Vec F S1x2048 .f32) (x4 : Vec F S1x2048 .f32) (xs0 : Vec F S1024x1 .f32) :
    out0_C_5 c i arg2 harg2 arg3 harg3 arg4 harg4 arg5 harg5 arg6 harg6 arg7 harg7 arg8 harg8 hc0 hc1 x0 x1 x2 x3 x4 xs0 = k0_pay2 x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg6.read_unread, harg7.read_unread, harg8.read_unread, View.ld_unit_zero (S := S1024x512) hz, View.ld_unit_zero (S := S2048x512) hz, View.ld_unit_zero (S := S1024x1) hz, View.ld_unit_zero (S := S1x2048) hz]

/-- A step in the first column: the running sums become the step's block over zero. -/
theorem sums_first (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S2048x512 .bf16) (x2 : Vec F S1024x1 .f32) (x3 : Vec F S1x2048 .f32) (x4 : Vec F S1x2048 .f32) :
    sout0_A_0 c i arg2 harg2 arg3 harg3 arg4 harg4 arg5 harg5 arg6 harg6 arg7 harg7 arg8 harg8 hc0 hc1 x0 x1 x2 x3 x4 = k0_pay2 x0 x1 x2 x3 x4 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg7.read_unread, harg8.read_unread, View.ld_unit_zero (S := S1024x512) hz, View.ld_unit_zero (S := S2048x512) hz, View.ld_unit_zero (S := S1024x1) hz, View.ld_unit_zero (S := S1x2048) hz]

end Cert.KernelIdeal.RbfSteps

end
-- ==== Proof.RbfWindows.lean ====
/-
  Where each staged block sits in its array at a grid point, and so what it holds.

  The grid has 2 x 25 points, numbered row by row: point t is in grid row t / 25 and grid column t % 25. The block of
  1024 query rows (and of their half norms, and of the output) follows the grid row; the block of 2048 reference rows
  (and of their half norms and weights, laid out as rows) follows the grid column.  Entry (r, q) of a block is the
  array's entry at block index times block size plus (r, q).
-/
import proofs.«109297_j51462298140953_2_alg».proof.Proof.Gen.KernelIdeal.Frame
import Idealize.ShloMosaic.Lib.Pipeline.Value
import Idealize.ShloMosaic.Lib.ValueIdx

noncomputable section

namespace Cert.KernelIdeal.RbfWindows

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the six windows at point t, decided over the 50 points. -/
theorem block_pos : ∀ t : Fin cfg0.N,
    win0_0.index t 0 = t.val / 25 ∧ win0_0.index t 1 = 0 ∧ win0_1.index t 0 = t.val % 25 ∧ win0_1.index t 1 = 0
    ∧ win0_2.index t 0 = t.val / 25 ∧ win0_2.index t 1 = 0 ∧ win0_3.index t 0 = 0 ∧ win0_3.index t 1 = t.val % 25
    ∧ win0_4.index t 0 = 0 ∧ win0_4.index t 1 = t.val % 25 ∧ win0_5.index t 0 = t.val / 25 ∧ win0_5.index t 1 = 0 :=
  (by decide +kernel : ∀ t : Fin grid0.N, _)

theorem lt_N (t : Fin cfg0.N) : t.val < 50 := lt_of_lt_of_eq t.isLt (show cfg0.N = 50 from N_0)

/-- Row r of the block of query rows staged at point t, as a row of the whole array. -/
def qrow (t : Fin cfg0.N) (r : Fin 1024) : Fin 2048 := ⟨1024 * (t.val / 25) + r.val, by have := lt_N t; omega⟩
/-- Row k of the block of reference rows staged at point t, as a row of the padded set. -/
def srow (t : Fin cfg0.N) (k : Fin 2048) : Fin 51200 := ⟨2048 * (t.val % 25) + k.val, by omega⟩

theorem queries_block (c : Dev nD) (t : Fin cfg0.N) (r : Fin 1024) (q : Fin 512) :
    (iblk m c 0 t : Vec F S1024x512 .bf16) (ix2 r q) = (V m c main_v10 : Vec F S2048x512 .bf16) (ix2 (qrow t r) q) := by
  unfold iblk
  rw [View.read_apply]
  refine congrArg (V m c main_v10) (funext fun a => Fin.ext ?_)
  match a with
  | ⟨0, _⟩ => show win0_0.index t 0 * 1024 + 1 * r.val = 1024 * (t.val / 25) + r.val; rw [(block_pos t).1]; omega
  | ⟨1, _⟩ => show win0_0.index t 1 * 512 + 1 * q.val = q.val; rw [(block_pos t).2.1]; omega

theorem set_block (c : Dev nD) (t : Fin cfg0.N) (k : Fin 2048) (q : Fin 512) :
    (iblk m c 1 t : Vec F S2048x512 .bf16) (ix2 k q) = (V m c main_v12 : Vec F S51200x512 .bf16) (ix2 (srow t k) q) := by
  unfold iblk
  rw [View.read_apply]
  refine congrArg (V m c main_v12) (funext fun a => Fin.ext ?_)
  match a with
  | ⟨0, _⟩ => show win0_1.index t 0 * 2048 + 1 * k.val = 2048 * (t.val % 25) + k.val; rw [(block_pos t).2.2.1]; omega
  | ⟨1, _⟩ => show win0_1.index t 1 * 512 + 1 * q.val = q.val; rw [(block_pos t).2.2.2.1]; omega

theorem queryNorms_block (c : Dev nD) (t : Fin cfg0.N) (r : Fin 1024) (u : Fin 1) :
    (iblk m c 2 t : Vec F S1024x1 .f32) (ix2 r u) = (V m c main_v4 : Vec F S2048x1 .f32) (ix2 (qrow t r) (0 : Fin 1)) := by
  unfold iblk
  rw [View.read_apply]
  refine congrArg (V m c main_v4) (funext fun a => Fin.ext ?_)
  match a with
  | ⟨0, _⟩ => show win0_2.index t 0 * 1024 + 1 * r.val = 1024 * (t.val / 25) + r.val; rw [(block_pos t).2.2.2.2.1]; omega
  | ⟨1, _⟩ => show win0_2.index t 1 * 1 + 1 * u.val = 0; rw [(block_pos t).2.2.2.2.2.1]; omega

theorem setNorms_block (c : Dev nD) (t : Fin cfg0.N) (u : Fin 1) (k : Fin 2048) :
    (iblk m c 3 t : Vec F S1x2048 .f32) (ix2 u k) = (V m c main_v14 : Vec F S1x51200 .f32) (ix2 (0 : Fin 1) (srow t k)) := by
  unfold iblk
  rw [View.read_apply]
  refine congrArg (V m c main_v14) (funext fun a => Fin.ext ?_)
  match a with
  | ⟨0, _⟩ => show win0_3.index t 0 * 1 + 1 * u.val = 0; rw [(block_pos t).2.2.2.2.2.2.1]; omega
  | ⟨1, _⟩ => show win0_3.index t 1 * 2048 + 1 * k.val = 2048 * (t.val % 25) + k.val; rw [(block_pos t).2.2.2.2.2.2.2.1]; omega

theorem weights_block (c : Dev nD) (t : Fin cfg0.N) (u : Fin 1) (k : Fin 2048) :
    (iblk m c 4 t : Vec F S1x2048 .f32) (ix2 u k) = (V m c main_v16 : Vec F S1x51200 .f32) (ix2 (0 : Fin 1) (srow t k)) := by
  unfold iblk
  rw [View.read_apply]
  refine congrArg (V m c main_v16) (funext fun a => Fin.ext ?_)
  match a with
  | ⟨0, _⟩ => show win0_4.index t 0 * 1 + 1 * u.val = 0; rw [(block_pos t).2.2.2.2.2.2.2.2.1]; omega
  | ⟨1, _⟩ => show win0_4.index t 1 * 2048 + 1 * k.val = 2048 * (t.val % 25) + k.val; rw [(block_pos t).2.2.2.2.2.2.2.2.2.1]; omega

end Cert.KernelIdeal.RbfWindows

end
-- ==== Proof.RbfSums.lean ====
/-
  The running row sums across a row of the grid, and the output array they end in.

  Point t of the grid adds to the running sum of row r the 2048 terms of its block of reference rows (its step sum).
  The points of one grid row are 25 consecutive points; the first of them starts from zero, and the last copies the
  running sums into the output block, which is written back to rows 1024 * (grid row) ... of the output array.  So row
  b of the output array ends holding the sum of the 25 step sums of its grid row.  Proved by induction along the
  points, never by listing them.
-/
import proofs.«109297_j51462298140953_2_alg».proof.Proof.Gen.KernelIdeal.Frame
import proofs.«109297_j51462298140953_2_alg».proof.Proof.RbfPayload
import proofs.«109297_j51462298140953_2_alg».proof.Proof.RbfSteps
import proofs.«109297_j51462298140953_2_alg».proof.Proof.RbfWindows
import Idealize.ShloMosaic.Lib.Pipeline.Value
import Idealize.ShloMosaic.Lib.ValueIdx

noncomputable section

namespace Cert.KernelIdeal.RbfSums

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- What point t adds to the running sum of row r: the 2048 terms of its blocks. -/
def stepSum (c : Dev nD) (t : Fin cfg0.N) (r : Fin 1024) : EReal :=
  ∑ k : Fin 2048, RbfBody.term (iblk m c 0 t) (iblk m c 1 t) (iblk m c 2 t) (iblk m c 3 t) (iblk m c 4 t) r k

/-- The same with the point and the row given as naturals (zero outside the grid or the block). -/
def stepSumN (c : Dev nD) (n r : ℕ) : EReal :=
  if h : n < cfg0.N ∧ r < 1024 then stepSum m c ⟨n, h.1⟩ ⟨r, h.2⟩ else 0

theorem stepSumN_eq (c : Dev nD) (t : Fin cfg0.N) (r : Fin 1024) : stepSumN m c t.val r.val = stepSum m c t r := by
  unfold stepSumN
  rw [dif_pos ⟨t.isLt, r.isLt⟩]

/-- At the first point of a grid row the running sums become the point's step sums. -/
theorem sums_at_first (c : Dev nD) (t : Fin cfg0.N) (h0 : t.val % 25 = 0) (h1 : ¬ t.val % 25 = 24) (r : Fin 1024) (u : Fin 1) :
    (outsAt0 m c t.val t.isLt).2 (ix2 r u) = stepSum m c t r := by
  rw [outsAt0_A m c t h0 h1]
  dsimp only
  rw [RbfSteps.sums_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)]
  refine (RbfBody.pay2_apply (iblk m c 0 t) (iblk m c 1 t) (iblk m c 2 t) (iblk m c 3 t) (iblk m c 4 t) k0_pay1 r u).trans ?_
  rw [RbfBody.pay1_apply, zero_add]
  rfl

/-- At every other point they grow by the point's step sums. -/
theorem sums_at_next (c : Dev nD) (t : Fin cfg0.N) (h0 : ¬ t.val % 25 = 0) (r : Fin 1024) (u : Fin 1) :
    (outsAt0 m c t.val t.isLt).2 (ix2 r u) = (outsAt0 m c (t.val - 1) (Nat.lt_of_le_of_lt (Nat.sub_le _ _) t.isLt)).2 (ix2 r u) + stepSum m c t r := by
  by_cases h1 : t.val % 25 = 24
  · rw [outsAt0_C m c t h0 h1]
    dsimp only
    rw [RbfSteps.sums_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2]
    exact RbfBody.pay2_apply (iblk m c 0 t) (iblk m c 1 t) (iblk m c 2 t) (iblk m c 3 t) (iblk m c 4 t) (outsAt0 m c (t.val - 1) (Nat.lt_of_le_of_lt (Nat.sub_le _ _) t.isLt)).2 r u
  · rw [outsAt0_B m c t h0 h1]
    dsimp only
    rw [RbfSteps.sums_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2]
    exact RbfBody.pay2_apply (iblk m c 0 t) (iblk m c 1 t) (iblk m c 2 t) (iblk m c 3 t) (iblk m c 4 t) (outsAt0 m c (t.val - 1) (Nat.lt_of_le_of_lt (Nat.sub_le _ _) t.isLt)).2 r u

/-- At the last point of a grid row the output block is a copy of the running sums. -/
theorem out_at_last (c : Dev nD) (t : Fin cfg0.N) (h0 : ¬ t.val % 25 = 0) (h1 : t.val % 25 = 24) :
    (outsAt0 m c t.val t.isLt).1 = (outsAt0 m c t.val t.isLt).2 := by
  rw [outsAt0_C m c t h0 h1]
  dsimp only
  rw [RbfSteps.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2,
    RbfSteps.sums_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2]

/-- THE RUNNING SUMS after point n: the step sums of the points of n's grid row up to n. -/
theorem sums_after (c : Dev nD) : ∀ (n : ℕ) (hn : n < cfg0.N) (r : Fin 1024) (u : Fin 1),
    (outsAt0 m c n hn).2 (ix2 r u) = ∑ j ∈ Finset.range (n % 25 + 1), stepSumN m c (n - n % 25 + j) r.val := by
  intro n
  induction n with
  | zero =>
    intro hn r u
    refine (sums_at_first m c ⟨0, hn⟩ rfl (by show ¬ (0 : ℕ) % 25 = 24; omega) r u).trans ?_
    rw [show (0 : ℕ) % 25 + 1 = 1 from rfl, Finset.sum_range_one]
    exact (stepSumN_eq m c ⟨0, hn⟩ r).symm
  | succ n ih =>
    intro hn r u
    by_cases h0 : (n + 1) % 25 = 0
    · refine (sums_at_first m c ⟨n + 1, hn⟩ h0 (by show ¬ (n + 1) % 25 = 24; omega) r u).trans ?_
      rw [h0, Finset.sum_range_one]
      exact (stepSumN_eq m c ⟨n + 1, hn⟩ r).symm
    · have step : (outsAt0 m c (n + 1) hn).2 (ix2 r u)
          = (outsAt0 m c n (Nat.lt_of_succ_lt hn)).2 (ix2 r u) + stepSum m c ⟨n + 1, hn⟩ r :=
        sums_at_next m c ⟨n + 1, hn⟩ h0 r u
      rw [step, ih (Nat.lt_of_succ_lt hn) r u]
      have e1 : (n + 1) % 25 = n % 25 + 1 := by omega
      have e2 : n + 1 - (n % 25 + 1) = n - n % 25 := by omega
      have e3 : n - n % 25 + (n % 25 + 1) = n + 1 := by omega
      rw [e1, e2, Finset.sum_range_succ _ (n % 25 + 1), e3]
      exact congrArg (_ + ·) (stepSumN_eq m c ⟨n + 1, hn⟩ r).symm

/-- Row b of the output array: the 25 step sums of its grid row. -/
def rowTotal (c : Dev nD) (b : ℕ) : EReal :=
  ∑ j ∈ Finset.range 25, stepSumN m c (25 * (b / 1024) + j) (b % 1024)

/-- The output array after the launch. -/
def result (c : Dev nD) : Buf (Elt Ideal) ((c : Thread nD τ).loc main_v17) := fun i => rowTotal m c (i 0).val

theorem result_apply (c : Dev nD) (b : Fin 2048) (u : Fin 1) : result m c (ix2 b u) = rowTotal m c b.val := rfl

/-- What a point that writes back writes: its block of the output array. -/
theorem flushed_eq (c : Dev nD) (t : Fin cfg0.N) (hf : (cfg0.win 5).flush t = true) :
    (dats m 0 c).flushed 5 t = ((cfg0.win 5).blk t).view.read (Elt Ideal) (result m c) := by
  have h24 : t.val % 25 = 24 := (flush0_5 t).mp hf
  have h0 : ¬ t.val % 25 = 0 := by omega
  show (cfg0.win 5).cut (grid0.coords t) ((dats m 0 c).after 5 t) = _
  rw [after0_5, out_at_last m c t h0 h24]
  funext j
  obtain ⟨r, u, rfl⟩ : ∃ (r : Fin 1024) (u : Fin 1), j = ix2 r u := ⟨j 0, j 1, eq_ix2 j⟩
  refine (sums_after m c t.val t.isLt r u).trans ?_
  rw [View.read_apply]
  show _ = rowTotal m c (win0_5.index t 0 * 1024 + 1 * r.val)
  rw [(RbfWindows.block_pos t).2.2.2.2.2.2.2.2.2.2.1]
  unfold rowTotal
  have e1 : (t.val / 25 * 1024 + 1 * r.val) / 1024 = t.val / 25 := by omega
  have e2 : (t.val / 25 * 1024 + 1 * r.val) % 1024 = r.val := by omega
  have e3 : t.val - t.val % 25 = 25 * (t.val / 25) := by omega
  rw [e1, e2, e3, h24]

/-- An index of the output array is in point t's block iff each coordinate is in the block's range on its axis. -/
theorem mem_block (t : Fin cfg0.N) (i : S2048x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v17).slice (win0_5.rect t)).set ↔ _
  rw [View.set_slice_whole, Rect.mem_set_unit]
  exact Iff.rfl

/-- The last point of the grid row that holds row b of the output array. -/
def lastPoint (b : ℕ) (hb : b < 2048) : Fin cfg0.N :=
  ⟨25 * (b / 1024) + 24, by rw [show cfg0.N = 50 from N_0]; omega⟩

/-- So the output array ends at `result`: every row lies in the block of the last point of its grid row. -/
theorem final (c : Dev nD) : (dats m 0 c).arrAt 5 cfg0.N = result m c :=
  (dats m 0 c).arrAt_eq_of_cover 5 (result m c) (flushed_eq m c) fun i => by
    have hi0 : (i 0).val < 2048 := (i 0).isLt
    have hi1 : (i 1).val < 1 := (i 1).isLt
    refine ⟨lastPoint (i 0).val hi0, (flush0_5 _).mpr (by show (25 * ((i 0).val / 1024) + 24) % 25 = 24; omega), ?_⟩
    rw [mem_block]
    have hp := RbfWindows.block_pos (lastPoint (i 0).val hi0)
    have hv : (lastPoint (i 0).val hi0).val = 25 * ((i 0).val / 1024) + 24 := rfl
    intro a
    match a with
    | ⟨0, _⟩ =>
      show win0_5.index (lastPoint (i 0).val hi0) 0 * 1024 ≤ (i 0).val
        ∧ (i 0).val < win0_5.index (lastPoint (i 0).val hi0) 0 * 1024 + 1024
      rw [hp.2.2.2.2.2.2.2.2.2.2.1, hv]
      omega
    | ⟨1, _⟩ =>
      show win0_5.index (lastPoint (i 0).val hi0) 1 * 1 ≤ (i 1).val
        ∧ (i 1).val < win0_5.index (lastPoint (i 0).val hi0) 1 * 1 + 1
      rw [hp.2.2.2.2.2.2.2.2.2.2.2]
      omega

end Cert.KernelIdeal.RbfSums

end
-- ==== Proof.RbfRun.lean ====
/-
  After the launch the program adds the bias to every entry of the output column and takes the hyperbolic tangent;
  this module reads the kernel program's whole run: its result vector, at row b, is
      tanh( (sum of the 25 step sums of row b) + bias ),
  and its five arguments end as they began.
-/
import proofs.«109297_j51462298140953_2_alg».proof.Proof.Gen.KernelIdeal.Frame
import proofs.«109297_j51462298140953_2_alg».proof.Proof.RbfSums
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.RbfRun

open Cert.KernelIdeal Cert.KernelIdeal.Gen Idealize.ShloMosaic Idealize.ShloMosaic.TcCoe Idealize.SL.Sem Idealize.ShloMosaic.StableHlo
open Idealize.ShloMosaic.ValueIdx

section AnyValues
variable {F : FTy → Type} [FloatOps F]

/-- The operations after the launch, of the output column and the bias. -/
def tail (out : (⟨S2048x1, .f32⟩ : BufTy).Contents (Elt F)) (bias : (⟨S1, .f32⟩ : BufTy).Contents (Elt F)) :
    (⟨S2048, .f32⟩ : BufTy).Contents (Elt F) :=
  Host.tanh (addf (shapeCast S2048 out shapeCasts_S2048x1_S2048)
    (broadcastInDim S2048 ![] bcast_S_S2048 (shapeCast S_ bias shapeCasts_S1_S_)))

variable (m : (ℓ : Loc nD τ sig) → Buf (Elt F) ℓ)

/-- The result buffer after the whole program: the tail of what the launch left in the output array and of the bias
    as the launch left it. -/
theorem tail_eq (c : Dev nD) :
    Pipeline.afterTail₀ cfgs (dats m) 0 (V0 m) [hostOps1] c main_v22
      = tail (Pipeline.withArrays (cfgs 0).spec c (V0 m c) (fun w => (dats m 0 c).arrAt w (cfgs 0).N) (Proc.devRef .tc main_v17))
          (Pipeline.withArrays (cfgs 0).spec c (V0 m c) (fun w => (dats m 0 c).arrAt w (cfgs 0).N) (Proc.devRef .tc main_arg4)) := by
  unfold Pipeline.afterTail₀
  show StableHlo.after hostOps1 _ (Proc.devRef .tc main_v22) = _
  after_results
  rfl

end AnyValues

/-- The tail at row b, at the ideal values. -/
theorem tail_apply (out : FVec Ideal S2048x1 .f32) (bias : FVec Ideal S1 .f32) (b : Fin 2048) :
    tail (F := Ideal) out bias (ix1 b) = Ideal.tanh (out (ix2 b (0 : Fin 1)) + bias (ix1 (0 : Fin 1))) := by
  unfold tail
  show Ideal.tanh (shapeCast S2048 out shapeCasts_S2048x1_S2048 (ix1 b)
    + broadcastInDim S2048 ![] bcast_S_S2048 (shapeCast S_ bias shapeCasts_S1_S_) (ix1 b)) = _
  refine congrArg Ideal.tanh (congrArg₂ (fun p s => p + s) ?_ ?_)
  · exact shapeCast_apply out shapeCasts_S2048x1_S2048 (ix1 b) (ix2 b (0 : Fin 1)) (by
      rw [Shape.rowMajor_val_two, Shape.rowMajor_val_one]
      show b.val * 1 + 0 = b.val
      omega)
  · refine (broadcastInDim_apply _ bcast_S_S2048 _ (ix1 b) ix0 (fun a => a.elim0)).trans ?_
    exact shapeCast_apply bias shapeCasts_S1_S_ ix0 (ix1 (0 : Fin 1)) (by
      have h1 : (S1.rowMajor (ix1 (0 : Fin 1))).val < 1 := (S1.rowMajor (ix1 (0 : Fin 1))).isLt
      have h2 : (S_.rowMajor ix0).val < 1 := (S_.rowMajor ix0).isLt
      omega)

variable (m : (ℓ : Loc nD τ sig) → Buf (Elt Ideal) ℓ) (ρ : Dev nD → PrngReg)

/-- THE KERNEL PROGRAM'S RUN, read: the result vector and the unchanged arguments. -/
theorem run : θ_run defs (onTc (τ := τ) (main (F := Ideal))) ⟨m, fun _ => 0, ρ⟩ fun r => ∀ c : Dev nD,
      r.2.mem ((c.tc : Thread nD τ).loc main_v22) = tail (RbfSums.result m c) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v22 (Pipeline.mem_restRefs_of main_v22 (by decide) (by decide))).trans (tail_eq m c)).trans
        (congrArg₂ tail
          ((Pipeline.withArrays_arr spec0 launch0.win.arr_inj c _ _ 5).trans (RbfSums.final m c))
          ((Pipeline.withArrays_of_ne _ c (V0 m c) _ main_arg4 (by exact (by decide : ∀ w, Pipeline.arrRef spec0 w ≠ main_arg4))).trans
            (V_main_arg4 m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RbfRun

end
-- ==== Proof.LibRealSums.lean ====
/-
  Sums of products on the extended reals when every entry is a real number.

  On the extended reals a product does not distribute over a sum in general (an infinite factor meets
  a sum of opposite infinities), but it does when the entries are real: then every partial sum and
  every product is the image of the real one. This file states what a matrix product against a SUM of
  two matrices needs, entry by entry, and the three regroupings of a contraction sum that a product
  accumulated block by block uses: a sum over n·b indices as n sums over b indices, a sum padded with
  zeros past its length, and an accumulator that adds one block's sum per step.
-/
import Mathlib.Data.EReal.Operations
import Mathlib.Algebra.BigOperators.Intervals
import Mathlib.Algebra.BigOperators.Fin

namespace Cert.Lib.RealSums

open Finset

/-- An extended real that is neither infinity is a real number. -/
theorem exists_real {x : EReal} (h₁ : x ≠ ⊤) (h₂ : x ≠ ⊥) : ∃ r : ℝ, x = (r : EReal) :=
  ⟨x.toReal, (EReal.coe_toReal h₁ h₂).symm⟩

/-- An extended real whose absolute value, max x (-x), is below +∞ is a real number. -/
theorem exists_real_of_max_neg_lt_top {x : EReal} (h : max x (-x) < ⊤) : ∃ r : ℝ, x = (r : EReal) := by
  induction x using EReal.rec with
  | bot => simp at h
  | top => simp at h
  | coe r => exact ⟨r, rfl⟩

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

/-- A sum of products of reals, computed on the extended reals, is the image of the real sum. -/
theorem sum_coe_mul_coe {ι : Type*} (s : Finset ι) (f g : ι → ℝ) :
    ∑ i ∈ s, (f i : EReal) * (g i : EReal) = ((∑ i ∈ s, f i * g i : ℝ) : EReal) := by
  rw [coe_sum]; exact sum_congr rfl fun i _ => (EReal.coe_mul _ _).symm

/-- Real entries: the contraction against a sum of two rows is the sum of the two contractions. -/
theorem sum_add_mul {ι : Type*} (s : Finset ι) (a b w : ι → ℝ) :
    ∑ k ∈ s, ((a k : EReal) + (b k : EReal)) * (w k : EReal)
      = ∑ k ∈ s, (a k : EReal) * (w k : EReal) + ∑ k ∈ s, (b k : EReal) * (w k : EReal) := by
  rw [sum_coe_mul_coe, sum_coe_mul_coe, ← EReal.coe_add, ← sum_add_distrib]
  have : ∀ k ∈ s, ((a k : EReal) + (b k : EReal)) * (w k : EReal) = ((a k * w k + b k * w k : ℝ) : EReal) := by
    intro k _; rw [← EReal.coe_add, ← EReal.coe_mul, add_mul]
  rw [sum_congr rfl this, coe_sum]

/-- The same for extended-real rows KNOWN to be real entry by entry. -/
theorem sum_add_mul_of_real {ι : Type*} (s : Finset ι) (a b w : ι → EReal)
    (ha : ∀ k, ∃ r : ℝ, a k = r) (hb : ∀ k, ∃ r : ℝ, b k = r) (hw : ∀ k, ∃ r : ℝ, w k = r) :
    ∑ k ∈ s, (a k + b k) * w k = ∑ k ∈ s, a k * w k + ∑ k ∈ s, b k * w k := by
  choose a' ha' using ha; choose b' hb' using hb; choose w' hw' using hw
  simp only [ha', hb', hw']
  exact sum_add_mul s a' b' w'

/-- A contraction of real rows is real. -/
theorem sum_mul_real {ι : Type*} (s : Finset ι) (a w : ι → EReal)
    (ha : ∀ k, ∃ r : ℝ, a k = r) (hw : ∀ k, ∃ r : ℝ, w k = r) : ∃ r : ℝ, ∑ k ∈ s, a k * w k = r := by
  choose a' ha' using ha; choose w' hw' using hw
  exact ⟨∑ k ∈ s, a' k * w' k, by simp only [ha', hw']; exact sum_coe_mul_coe s a' w'⟩

/-- Sums, and the larger of a real and zero, stay real. -/
theorem add_real {x y : EReal} (hx : ∃ r : ℝ, x = r) (hy : ∃ r : ℝ, y = r) : ∃ r : ℝ, x + y = r := by
  obtain ⟨r, rfl⟩ := hx; obtain ⟨q, rfl⟩ := hy; exact ⟨r + q, (EReal.coe_add r q).symm⟩
theorem max_zero_real {x : EReal} (hx : ∃ r : ℝ, x = r) : ∃ r : ℝ, max x 0 = r := by
  obtain ⟨r, rfl⟩ := hx
  exact ⟨max r 0, by rw [← EReal.coe_zero]; exact (EReal.coe_strictMono.monotone.map_max).symm⟩

/-! ## Regrouping a contraction sum -/

/-- A sum over the first n·b naturals is n consecutive sums over b naturals. -/
theorem sum_range_mul {M : Type*} [AddCommMonoid M] (n b : ℕ) (f : ℕ → M) :
    ∑ k ∈ range (n * b), f k = ∑ j ∈ range n, ∑ i ∈ range b, f (j * b + i) := by
  induction n with
  | zero => simp
  | succ n ih => rw [Nat.succ_mul, sum_range_add, ih, sum_range_succ]

/-- Padding the summand with zeros past position N does not change the sum of the first M ≥ N terms. -/
theorem sum_range_pad {M : Type*} [AddCommMonoid M] {N L : ℕ} (h : N ≤ L) (f : ℕ → M) :
    ∑ k ∈ range L, (if k < N then f k else 0) = ∑ k ∈ range N, f k := by
  rw [← sum_subset (range_mono h) (fun k _ hk => by rw [if_neg (by simpa using hk)])]
  exact sum_congr rfl fun k hk => if_pos (mem_range.mp hk)

/-- An accumulator that starts at zero and adds one term per step holds the sum of the terms so far. -/
theorem acc_eq_sum {M : Type*} [AddCommMonoid M] (g : ℕ → M) (acc : ℕ → M) (h0 : acc 0 = 0)
    (hs : ∀ k, acc (k + 1) = acc k + g k) (n : ℕ) : acc n = ∑ j ∈ range n, g j := by
  induction n with
  | zero => simpa using h0
  | succ n ih => rw [hs, ih, sum_range_succ]

/-- A sum over `Fin n` of a function of the underlying natural is the sum over the first n naturals. -/
theorem sum_fin_eq_range {M : Type*} [AddCommMonoid M] (n : ℕ) (f : ℕ → M) :
    ∑ k : Fin n, f k.val = ∑ k ∈ range n, f k := Fin.sum_univ_eq_sum_range f n

end Cert.Lib.RealSums
-- ==== Proof.LibBlockSum.lean ====
/-
  A sum over n · d consecutive indices, cut into n consecutive blocks of d.

  The whole sum is the sum over the blocks of each block's sum, in any additive commutative monoid — in particular on
  the extended reals, where nothing needs to be finite: only commutativity and associativity of addition are used.
  Position j of block b is the index b · d + j.
-/
import Mathlib.Algebra.BigOperators.Fin
import Mathlib.Algebra.BigOperators.Intervals
import Mathlib.Logic.Equiv.Fin.Basic

namespace Cert.Lib.BlockSum

open Finset

/-- Position `j` of block `b`, as an index below `n * d`. -/
def pos (n d : Nat) (b : Fin n) (j : Fin d) : Fin (n * d) :=
  ⟨b.val * d + j.val, by
    have hj := j.isLt
    have h : (b.val + 1) * d ≤ n * d := Nat.mul_le_mul_right d b.isLt
    rw [Nat.succ_mul] at h
    omega⟩

@[simp] theorem pos_val (n d : Nat) (b : Fin n) (j : Fin d) : (pos n d b j).val = b.val * d + j.val := rfl

/-- The whole sum is the sum of the block sums. -/
theorem sum_blocks {M : Type*} [AddCommMonoid M] (n d : Nat) (f : Fin (n * d) → M) :
    ∑ k : Fin (n * d), f k = ∑ b : Fin n, ∑ j : Fin d, f (pos n d b j) := by
  rw [← Fintype.sum_prod_type']
  refine (Fintype.sum_equiv finProdFinEquiv _ _ (fun p => ?_)).symm
  congr 1
  apply Fin.ext
  simp [finProdFinEquiv, pos_val, Nat.mul_comm, Nat.add_comm]

end Cert.Lib.BlockSum
-- ==== Proof.RbfMath.lean ====
/-
  The arithmetic that joins the two spellings of a Gaussian-kernel score, on the extended reals.

  For one query row x and a set of N reference rows d_n with weights w_n, the score is
      sum over n of  w_n * exp( -( |x|^2 + |d_n|^2 - 2 <x, d_n> ) / 2 ).
  One program computes the exponent in that form; the other computes <x, d_n> - |x|^2/2 - |d_n|^2/2, pads the
  reference set with zero rows of weight zero up to nb * bs rows, and adds the terms block by block (nb blocks of bs).
  Over the reals the two exponents are the same number; a padded term is 0 times something, which is 0 on the
  extended reals whatever the other factor is; and regrouping a sum into consecutive blocks uses only commutativity and
  associativity. Only the exponent needs the entries of x and d to be real numbers: c - a/2 - b/2 = -((a + b) - 2c)/2 fails
  at opposite infinities.
-/
import Idealize.ShloMosaic.PureOps.Ideal
import Idealize.ShloMosaic.PureOps.Ideal.Laws
import proofs.«109297_j51462298140953_2_alg».proof.Proof.LibRealSums
import proofs.«109297_j51462298140953_2_alg».proof.Proof.LibBlockSum

noncomputable section

namespace Cert.Rbf.Math

open Idealize.ShloMosaic Cert.Lib Finset

/-- The word of 0.5 denotes the real 1/2. -/
theorem ofBits_half : Ideal.ofBits .f32 0x3F000000#32 = ((1 / 2 : ℝ) : EReal) := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-- For real a, b, c:  c - (0 + a)/2 - (0 + b)/2  is  -(((0 + a) + (0 + b)) - 2c) / 2. -/
theorem exponent_eq (a b c : ℝ) :
    ((c : EReal) - ((1 / 2 : ℝ) : EReal) * (0 + (a : EReal))) - ((1 / 2 : ℝ) : EReal) * (0 + (b : EReal))
      = Ideal.div (-(((0 + (a : EReal)) + (0 + (b : EReal))) - ((2 : ℝ) : EReal) * (c : EReal))) ((2 : ℝ) : EReal) := by
  rw [Ideal.div_coe (by norm_num : (2 : ℝ) ≠ 0)]
  simp only [zero_add]
  simp only [← EReal.coe_mul, ← EReal.coe_add, ← EReal.coe_sub, ← EReal.coe_neg]
  congr 1
  ring

/-- A sum over L indices of a summand that is zero from position N on is the sum over the first N. -/
theorem sum_pad {M : Type*} [AddCommMonoid M] {N L : ℕ} (h : N ≤ L) (g : Fin N → M) :
    ∑ n : Fin L, (if hn : n.val < N then g ⟨n.val, hn⟩ else 0) = ∑ n : Fin N, g n := by
  have e1 := Fin.sum_univ_eq_sum_range (fun k => if hn : k < N then g ⟨k, hn⟩ else 0) L
  have e2 := Fin.sum_univ_eq_sum_range (fun k => if hn : k < N then g ⟨k, hn⟩ else 0) N
  rw [e1]
  rw [← sum_subset (range_mono h) (fun k _ hk => by rw [dif_neg (by simpa using hk)]), ← e2]
  exact sum_congr rfl fun n _ => by rw [dif_pos n.isLt]

variable {N K nb bs : ℕ}

/-- THE SCORE. One query row `x` against N reference rows `D` with weights `w`: the padded, block-by-block sum with the
    exponent spelt <x, d> - |x|^2/2 - |d|^2/2 is the plain sum over the N rows with the exponent spelt
    -((|x|^2 + |d|^2) - 2<x, d>)/2, when the entries of `x` and `D` are real. The padded arrays `Wp`, `Dp`, `Hp` are
    known only through what they hold: the unpadded value below N, and for the weight zero from N on. -/
theorem score_eq (half two : EReal) (hh : half = ((1 / 2 : ℝ) : EReal)) (ht : two = ((2 : ℝ) : EReal))
    (Wp : Fin (nb * bs) → EReal) (Dp : Fin (nb * bs) → Fin K → EReal) (Hp : Fin (nb * bs) → EReal)
    (w : Fin N → EReal) (D : Fin N → Fin K → EReal) (x : Fin K → EReal)
    (hW : ∀ (n : Fin (nb * bs)) (h : n.val < N), Wp n = w ⟨n.val, h⟩)
    (hW0 : ∀ n : Fin (nb * bs), ¬ n.val < N → Wp n = 0)
    (hDp : ∀ (n : Fin (nb * bs)) (h : n.val < N) (q : Fin K), Dp n q = D ⟨n.val, h⟩ q)
    (hHp : ∀ (n : Fin (nb * bs)) (h : n.val < N), Hp n = half * (0 + ∑ q : Fin K, D ⟨n.val, h⟩ q * D ⟨n.val, h⟩ q))
    (hx : ∀ q, ∃ r : ℝ, x q = r) (hD : ∀ n q, ∃ r : ℝ, D n q = r) (hN : N ≤ nb * bs) :
    ∑ j : Fin nb, ∑ c : Fin bs, Wp (BlockSum.pos nb bs j c)
        * Ideal.exp ((∑ q : Fin K, x q * Dp (BlockSum.pos nb bs j c) q - half * (0 + ∑ q : Fin K, x q * x q))
            - Hp (BlockSum.pos nb bs j c))
      = 0 + ∑ n : Fin N, w n * Ideal.exp (Ideal.div
          (-(((0 + ∑ q : Fin K, x q * x q) + (0 + ∑ q : Fin K, D n q * D n q)) - two * ∑ q : Fin K, x q * D n q)) two) := by
  refine Eq.trans ?_ (zero_add _).symm
  rw [← BlockSum.sum_blocks nb bs (fun n => Wp n
        * Ideal.exp ((∑ q : Fin K, x q * Dp n q - half * (0 + ∑ q : Fin K, x q * x q)) - Hp n)),
    ← sum_pad hN]
  refine sum_congr rfl fun n _ => ?_
  by_cases h : n.val < N
  · rw [dif_pos h, hW n h, hHp n h]
    simp only [hDp n h]
    obtain ⟨a, ha⟩ := RealSums.sum_mul_real univ x x hx hx
    obtain ⟨b, hb⟩ := RealSums.sum_mul_real univ (D ⟨n.val, h⟩) (D ⟨n.val, h⟩) (hD _) (hD _)
    obtain ⟨c, hc⟩ := RealSums.sum_mul_real univ x (D ⟨n.val, h⟩) hx (hD _)
    rw [ha, hb, hc, hh, ht, exponent_eq a b c]
  · rw [dif_neg h, hW0 n h, zero_mul]

end Cert.Rbf.Math

end
-- ==== Proof.RbfStaged.lean ====
/-
  What the launch finds in the five arrays it stages, as functions of the program's arguments.

  Before the launch the program computes, from the queries x [2048, 512], the reference set d [50000, 512], the labels
  and the multipliers:  x itself narrowed to the matrix unit's format;  d narrowed likewise and extended by 1200 rows of
  the padding value to 51200 rows;  the column of 0.5 * (0 + sum of squares) of each query row;  the vector of
  0.5 * (0 + sum of squares) of each reference row, extended by 1200 padding entries and laid out as one row;  and
  the vector label * multiplier, extended and laid out the same way.  The padding value is the integer 0 converted.
-/
import proofs.«109297_j51462298140953_2_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.RbfStaged

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- Half the squared norm of every row of an [n, 512]-shaped array, as the program computes it, for the queries: a column. -/
def halfNormCol (x : (⟨S2048x512, .f32⟩ : BufTy).Contents (Elt F)) : (⟨S2048x1, .f32⟩ : BufTy).Contents (Elt F) :=
  mulf (broadcastInDim S2048x1 ![] bcast_S_S2048x1 (constant S_ .f32 0x3F000000#32))
    (broadcastInDim S2048x1 ![0] bcast_S2048_S2048x1_0
      (Host.reduceAdd (mulf x x) (constant S_ .f32 0x00000000#32) reducesTo_S2048x512_S2048_d1 h_S_))

/-- The same for the reference rows: a vector. -/
def halfNormVec (d : (⟨S50000x512, .f32⟩ : BufTy).Contents (Elt F)) : (⟨S50000, .f32⟩ : BufTy).Contents (Elt F) :=
  mulf (broadcastInDim S50000 ![] bcast_S_S50000 (constant S_ .f32 0x3F000000#32))
    (Host.reduceAdd (mulf d d) (constant S_ .f32 0x00000000#32) reducesTo_S50000x512_S50000_d1 h_S_)

/-- A vector of 50000 entries extended by 1200 padding entries and laid out as one row of 51200. -/
def paddedRow (v : (⟨S50000, .f32⟩ : BufTy).Contents (Elt F)) : (⟨S1x51200, .f32⟩ : BufTy).Contents (Elt F) :=
  shapeCast S1x51200 (pad S51200 ![0] ![1200] ![0] v (sitofp (F := F) .f32 (constantI S_ 32 0#32)) pads_S50000_S51200_012000 h_S_)
    shapeCasts_S51200_S1x51200

/-- The reference set narrowed and extended by 1200 padding rows. -/
def paddedSet (d : (⟨S50000x512, .f32⟩ : BufTy).Contents (Elt F)) : (⟨S51200x512, .bf16⟩ : BufTy).Contents (Elt F) :=
  pad S51200x512 ![0, 0] ![1200, 0] ![0, 0] (truncf .bf16 d bitsLt_bf16_f32) (sitofp (F := F) .bf16 (constantI S_ 32 0#32))
    pads_S50000x512_S51200x512_012000_000 h_S_

theorem staged_queries (c : Dev nD) :
    V m c main_v10 = truncf .bf16 (m ((c : Thread nD τ).loc main_arg0)) bitsLt_bf16_f32 := by
  dsimp only [V, V0]
  simp only [hostOps0, hostOps0_1, hostOps0_2, hostOps0_3, hostOps0_4, hostOps0_5, hostOps0_6, List.flatten_cons, List.flatten_nil, List.append_nil, List.cons_append, List.nil_append]
  after_results

theorem staged_set (c : Dev nD) : V m c main_v12 = paddedSet (m ((c : Thread nD τ).loc main_arg1)) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

theorem staged_queryNorms (c : Dev nD) : V m c main_v4 = halfNormCol (m ((c : Thread nD τ).loc main_arg0)) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

theorem staged_setNorms (c : Dev nD) :
    V m c main_v14 = paddedRow (halfNormVec (m ((c : Thread nD τ).loc main_arg1))) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

theorem staged_weights (c : Dev nD) :
    V m c main_v16 = paddedRow (mulf (m ((c : Thread nD τ).loc main_arg2)) (m ((c : Thread nD τ).loc main_arg3))) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

end Cert.KernelIdeal.RbfStaged

end
-- ==== Proof.RbfEntries.lean ====
/-
  The staged arrays read entry by entry at the ideal values.

  Half the squared norm of row b is 0.5 * (0 + sum over q of x(b, q) * x(b, q)).  A padded array holds the
  unpadded entry below position 50000 and, from there on, the padding value, the integer 0 converted: 0.  Narrowing
  to the matrix unit's format changes nothing at the ideal values.
-/
import proofs.«109297_j51462298140953_2_alg».proof.Proof.RbfStaged
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.RbfEntries

open Cert.KernelIdeal Cert.KernelIdeal.Gen Idealize.ShloMosaic Idealize.ShloMosaic.ValueIdx Cert.KernelIdeal.RbfStaged

/-- The host's sum along the second axis of an [a, b] array, read at row r: the initial value plus the row's entries. -/
theorem reduceAdd_row {a b : ℕ} (x : FVec Ideal ⟨2, ![a, b]⟩ .f32) (v : FVec Ideal ⟨0, ![]⟩ .f32)
    (h' : (⟨2, ![a, b]⟩ : Shape).ReducesTo [1] ⟨1, ![a]⟩) (h : (⟨2, ![a, b]⟩ : Shape).Reduces [1] ⟨1, ![a]⟩)
    (h0 : 0 < (⟨0, ![]⟩ : Shape).numel) (r : Fin a) :
    Host.reduceAdd x v h' h0 (ix1 r) = v (Shape.Idx.first h0) + ∑ k : Fin b, x (ix2 r k) := by
  simp only [Host.reduceAdd, Ideal.hostReduceAdd_def]
  refine (Ideal.hostReduceAdd_single h' h x _ (ix1 r)).trans ?_
  refine congrArg (_ + ·) (Finset.sum_congr rfl fun k _ => ?_)
  exact congrArg x (funext fun ax => Fin.ext (by match ax with | ⟨0, _⟩ => rfl | ⟨1, _⟩ => rfl))

/-- The padding value is zero. -/
theorem padValue_f32 : (sitofp (F := Ideal) .f32 (constantI S_ 32 0#32)) (Shape.Idx.first h_S_) = 0 := by
  show (((0#32 : BitVec 32).toInt : ℝ) : EReal) = 0
  simp

/-- Half the squared norm of query row b. -/
theorem halfNormCol_apply (x : FVec Ideal S2048x512 .f32) (b : Fin 2048) :
    halfNormCol (F := Ideal) x (ix2 b (0 : Fin 1))
      = Ideal.ofBits .f32 0x3F000000#32 * (0 + ∑ q : Fin 512, x (ix2 b q) * x (ix2 b q)) := by
  unfold halfNormCol
  refine congrArg₂ (fun p s => p * s) ?_ ?_
  · exact broadcastInDim_apply _ bcast_S_S2048x1 _ (ix2 b (0 : Fin 1)) ix0 (fun a => a.elim0)
  · refine (broadcastInDim_apply _ bcast_S2048_S2048x1_0 _ (ix2 b (0 : Fin 1)) (ix1 b) (fun a => match a with
      | ⟨0, _⟩ => by show b.val = if (2048 : Nat) = 1 then 0 else b.val; rw [if_neg (by decide)])).trans ?_
    refine (reduceAdd_row _ _ reducesTo_S2048x512_S2048_d1 (by decide) h_S_ b).trans ?_
    exact congrArg₂ (fun p s => p + s) Ideal.ofBits_zero_f32 rfl

/-- Half the squared norm of reference row n. -/
theorem halfNormVec_apply (d : FVec Ideal S50000x512 .f32) (n : Fin 50000) :
    halfNormVec (F := Ideal) d (ix1 n)
      = Ideal.ofBits .f32 0x3F000000#32 * (0 + ∑ q : Fin 512, d (ix2 n q) * d (ix2 n q)) := by
  unfold halfNormVec
  refine congrArg₂ (fun p s => p * s) ?_ ?_
  · exact broadcastInDim_apply _ bcast_S_S50000 _ (ix1 n) ix0 (fun a => a.elim0)
  · refine (reduceAdd_row _ _ reducesTo_S50000x512_S50000_d1 (by decide) h_S_ n).trans ?_
    exact congrArg₂ (fun p s => p + s) Ideal.ofBits_zero_f32 rfl

/-- A padded row below position 50000 holds the vector's entry; -/
theorem paddedRow_inside (v : FVec Ideal S50000 .f32) (n : Fin 51200) (h : n.val < 50000) :
    paddedRow (F := Ideal) v (ix2 (0 : Fin 1) n) = v (ix1 ⟨n.val, h⟩) := by
  unfold paddedRow
  refine (shapeCast_a_1a_apply _ shapeCasts_S51200_S1x51200 0 n).trans ?_
  exact pad_apply_of_inside ![0] ![1200] ![0] v _ pads_S50000_S51200_012000 h_S_ (ix1 n) (ix1 ⟨n.val, h⟩)
    (fun a => match a with | ⟨0, _⟩ => by show n.val = 0 + n.val * (0 + 1); omega)

/-- from there on, zero. -/
theorem paddedRow_outside (v : FVec Ideal S50000 .f32) (n : Fin 51200) (h : ¬ n.val < 50000) :
    paddedRow (F := Ideal) v (ix2 (0 : Fin 1) n) = 0 := by
  unfold paddedRow
  refine (shapeCast_a_1a_apply _ shapeCasts_S51200_S1x51200 0 n).trans ?_
  refine (pad_apply_of_not_inside ![0] ![1200] ![0] v _ pads_S50000_S51200_012000 h_S_ (ix1 n) 0 (fun hh => h ?_)).trans padValue_f32
  have h3 : (n.val - 0) / (0 + 1) < 50000 := hh.2.2
  omega

/-- A row of the padded set below position 50000 is the reference row. -/
theorem paddedSet_inside (d : FVec Ideal S50000x512 .f32) (n : Fin 51200) (h : n.val < 50000) (q : Fin 512) :
    paddedSet (F := Ideal) d (ix2 n q) = d (ix2 (⟨n.val, h⟩ : Fin 50000) q) := by
  unfold paddedSet
  exact pad_apply_of_inside ![0, 0] ![1200, 0] ![0, 0] (truncf .bf16 d bitsLt_bf16_f32) _ pads_S50000x512_S51200x512_012000_000 h_S_
    (ix2 n q) (ix2 (⟨n.val, h⟩ : Fin 50000) q)
    (fun a => match a with
      | ⟨0, _⟩ => by show n.val = 0 + n.val * (0 + 1); omega
      | ⟨1, _⟩ => by show q.val = 0 + q.val * (0 + 1); omega)

end Cert.KernelIdeal.RbfEntries

end
-- ==== Proof.RbfReference.lean ====
/-
  The reference program's result, read at row b at the ideal values:
      tanh( (0 + sum over the 50000 reference rows n of  (label n * multiplier n) * exp( -(((0 + |x_b|^2) + (0 + |d_n|^2)) - 2 <x_b, d_n>) / 2 ))  + bias ),
  with |.|^2 and <.,.> the sums over the 512 features. Each operation of the program is read at an index by the
  generated lemmas; what is left here is that the composed index maps land on (b, q), (n, q) and n.
-/
import proofs.«109297_j51462298140953_2_alg».proof.Proof.Gen.ReferenceIdeal.Read
import Idealize.ShloMosaic.Lib.ValueIdx
import Idealize.ShloMosaic.PureOps.Ideal.Laws

noncomputable section

namespace Cert.ReferenceIdeal.RbfRef

open Cert.ReferenceIdeal Cert.ReferenceIdeal.Read Idealize.ShloMosaic Idealize.ShloMosaic.ValueIdx

theorem at_query (b : Fin 2048) (k : Fin 50000) (q : Fin 512) :
    idx_main_v1 (idx_main_v2 (idx_main_v7 (idx_main_v21 (ix1 b) k))) q = ix2 b q :=
  funext fun a => Fin.ext (by match a with | ⟨0, _⟩ => rfl | ⟨1, _⟩ => rfl)
theorem at_row (b : Fin 2048) (k : Fin 50000) (q : Fin 512) :
    idx_main_v4 (idx_main_v6 (idx_main_v8 (idx_main_v21 (ix1 b) k))) q = ix2 k q :=
  funext fun a => Fin.ext (by match a with | ⟨0, _⟩ => rfl | ⟨1, _⟩ => rfl)
theorem at_left (b : Fin 2048) (k : Fin 50000) (q : Fin 512) : lidx_main_v5 (idx_main_v21 (ix1 b) k) q = ix2 b q :=
  funext fun a => Fin.ext (by match a with | ⟨0, _⟩ => rfl | ⟨1, _⟩ => rfl)
theorem at_right (b : Fin 2048) (k : Fin 50000) (q : Fin 512) : ridx_main_v5 (idx_main_v21 (ix1 b) k) q = ix2 k q :=
  funext fun a => Fin.ext (by match a with | ⟨0, _⟩ => rfl | ⟨1, _⟩ => rfl)
theorem at_weight (b : Fin 2048) (k : Fin 50000) : idx_main_v18 (idx_main_v19 (idx_main_v21 (ix1 b) k)) = ix1 k :=
  funext fun a => Fin.ext (by match a with | ⟨0, _⟩ => rfl)
theorem at_bias (b : Fin 2048) : idx_main_v22 (ix1 b) = ix1 (0 : Fin 1) :=
  funext fun a => Fin.ext (by match a with | ⟨0, _⟩ => rfl)

/-- The reference's result at row b. -/
theorem result_apply (x0 : FVec Ideal S2048x512 .f32) (x1 : FVec Ideal S50000x512 .f32) (x2 x3 : FVec Ideal S50000 .f32)
    (x4 : FVec Ideal S1 .f32) (b : Fin 2048) :
    val_main_v24 (F := Ideal) x0 x1 x2 x3 x4 (ix1 b)
      = Ideal.tanh ((0 + ∑ n : Fin 50000, (x2 (ix1 n) * x3 (ix1 n)) * Ideal.exp (Ideal.div
          (-(((0 + ∑ q : Fin 512, x0 (ix2 b q) * x0 (ix2 b q)) + (0 + ∑ q : Fin 512, x1 (ix2 n q) * x1 (ix2 n q)))
              - Ideal.ofBits .f32 0x40000000#32 * ∑ q : Fin 512, x0 (ix2 b q) * x1 (ix2 n q)))
          (Ideal.ofBits .f32 0x40000000#32))) + x4 (ix1 (0 : Fin 1))) := by
  rw [val_main_v24_apply, val_main_v23_apply, val_main_v21_apply, val_main_v22_apply]
  simp only [val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply, val_main_cst_2_apply, val_main_cst_3_apply,
    at_query, at_row, at_left, at_right, at_weight, at_bias,
    Ideal.hostUnary_tanh_def, Ideal.hostUnary_exp_def, Ideal.hostDivf_def, Ideal.hostNegf_def, Ideal.negf_def,
    Ideal.subf_def, Ideal.addf_def, Ideal.mulf_def, Ideal.ofBits_def, Ideal.ofBits_zero_f32]

end Cert.ReferenceIdeal.RbfRef

end
-- ==== Proof.RbfBridge.lean ====
/-
  The kernel program's result and the reference's are the same vector when the queries and the reference set are real.

  Row b of the kernel's output column is the sum, over the 25 blocks of 2048 padded reference rows, of
      weight n * exp( <x_b, d_n> - 0.5 (0 + |x_b|^2) - 0.5 (0 + |d_n|^2) ),
  with weight, d and the half norm read from the padded arrays: each block entry is traced back through its window to
  the padded array and from there to the arguments.  The score identity then turns this into the reference's sum over
  the 50000 rows; both programs finish with the same bias and hyperbolic tangent.
-/
import proofs.«109297_j51462298140953_2_alg».proof.Proof.Gen.KernelIdeal.Frame
import proofs.«109297_j51462298140953_2_alg».proof.Proof.RbfMath
import proofs.«109297_j51462298140953_2_alg».proof.Proof.RbfStaged
import proofs.«109297_j51462298140953_2_alg».proof.Proof.RbfEntries
import proofs.«109297_j51462298140953_2_alg».proof.Proof.RbfWindows
import proofs.«109297_j51462298140953_2_alg».proof.Proof.RbfSums
import proofs.«109297_j51462298140953_2_alg».proof.Proof.RbfRun
import proofs.«109297_j51462298140953_2_alg».proof.Proof.RbfReference
import proofs.«109297_j51462298140953_2_alg».proof.Proof.LibRowsDot
import proofs.«109297_j51462298140953_2_alg».proof.Proof.LibBlockSum
import Idealize.ShloMosaic.Lib.ValueIdx

noncomputable section

namespace Cert.KernelIdeal.RbfBridge

open Cert.KernelIdeal Cert.KernelIdeal.Gen Idealize.ShloMosaic Idealize.ShloMosaic.TcCoe Idealize.SL.Sem
open Idealize.ShloMosaic.ValueIdx Cert.Lib
open Cert.KernelIdeal.RbfStaged Cert.KernelIdeal.RbfWindows Cert.KernelIdeal.RbfEntries

variable (m : (ℓ : Loc nD τ sig) → Buf (Elt Ideal) ℓ)

/-- The five arguments on core c. -/
abbrev X (c : Dev nD) : FVec Ideal S2048x512 .f32 := m ((c.tc : Thread nD τ).loc main_arg0)
abbrev D (c : Dev nD) : FVec Ideal S50000x512 .f32 := m ((c.tc : Thread nD τ).loc main_arg1)
abbrev L (c : Dev nD) : FVec Ideal S50000 .f32 := m ((c.tc : Thread nD τ).loc main_arg2)
abbrev M (c : Dev nD) : FVec Ideal S50000 .f32 := m ((c.tc : Thread nD τ).loc main_arg3)
abbrev B (c : Dev nD) : FVec Ideal S1 .f32 := m ((c.tc : Thread nD τ).loc main_arg4)

/-- The padded weights, half norms and reference rows, by padded position. -/
def Wp (c : Dev nD) (n : Fin 51200) : EReal := paddedRow (F := Ideal) (mulf (L m c) (M m c)) (ix2 (0 : Fin 1) n)
def Hp (c : Dev nD) (n : Fin 51200) : EReal := paddedRow (F := Ideal) (halfNormVec (D m c)) (ix2 (0 : Fin 1) n)
def Dp (c : Dev nD) (n : Fin 51200) (q : Fin 512) : EReal := paddedSet (F := Ideal) (D m c) (ix2 n q)

theorem weight_entry (c : Dev nD) (t : Fin cfg0.N) (k : Fin 2048) :
    (iblk m c 4 t : Vec Ideal S1x2048 .f32) (ix2 (0 : Fin 1) k) = Wp m c (srow t k) :=
  (weights_block m c t 0 k).trans (congrFun (staged_weights m c) _)

theorem setNorm_entry (c : Dev nD) (t : Fin cfg0.N) (k : Fin 2048) :
    (iblk m c 3 t : Vec Ideal S1x2048 .f32) (ix2 (0 : Fin 1) k) = Hp m c (srow t k) :=
  (setNorms_block m c t 0 k).trans (congrFun (staged_setNorms m c) _)

theorem queryNorm_entry (c : Dev nD) (t : Fin cfg0.N) (r : Fin 1024) :
    (iblk m c 2 t : Vec Ideal S1024x1 .f32) (ix2 r (0 : Fin 1))
      = Ideal.ofBits .f32 0x3F000000#32 * (0 + ∑ q : Fin 512, X m c (ix2 (qrow t r) q) * X m c (ix2 (qrow t r) q)) :=
  ((queryNorms_block m c t r 0).trans (congrFun (staged_queryNorms m c) _)).trans (halfNormCol_apply (X m c) (qrow t r))

theorem dot_entry (c : Dev nD) (t : Fin cfg0.N) (r : Fin 1024) (k : Fin 2048) :
    RowsDot.rowsDot (iblk m c 0 t : FVec Ideal S1024x512 .bf16) (iblk m c 1 t : FVec Ideal S2048x512 .bf16) (ix2 r k)
      = ∑ q : Fin 512, X m c (ix2 (qrow t r) q) * Dp m c (srow t k) q := by
  refine (RowsDot.rowsDot_ix2 (iblk m c 0 t : FVec Ideal S1024x512 .bf16) (iblk m c 1 t : FVec Ideal S2048x512 .bf16) r k).trans ?_
  refine Finset.sum_congr rfl fun q _ => ?_
  refine congrArg₂ (fun p s => p * s) ?_ ?_
  · exact (queries_block m c t r q).trans (congrFun (staged_queries m c) _)
  · exact (set_block m c t k q).trans (congrFun (staged_set m c) _)

/-- Row b of the output column, block by block over the padded reference rows. -/
theorem rowTotal_eq (c : Dev nD) (b : Fin 2048) :
    RbfSums.rowTotal m c b.val = ∑ j : Fin 25, ∑ k : Fin 2048, Wp m c (BlockSum.pos 25 2048 j k)
        * Ideal.exp ((∑ q : Fin 512, X m c (ix2 b q) * Dp m c (BlockSum.pos 25 2048 j k) q
              - Ideal.ofBits .f32 0x3F000000#32 * (0 + ∑ q : Fin 512, X m c (ix2 b q) * X m c (ix2 b q)))
            - Hp m c (BlockSum.pos 25 2048 j k)) := by
  unfold RbfSums.rowTotal
  rw [← Fin.sum_univ_eq_sum_range (fun j => RbfSums.stepSumN m c (25 * (b.val / 1024) + j) (b.val % 1024)) 25]
  refine Finset.sum_congr rfl fun j _ => ?_
  have hb : b.val < 2048 := b.isLt
  have hj : j.val < 25 := j.isLt
  have ht : 25 * (b.val / 1024) + j.val < cfg0.N := by rw [show cfg0.N = 50 from N_0]; omega
  have hr : b.val % 1024 < 1024 := by omega
  refine (RbfSums.stepSumN_eq m c ⟨25 * (b.val / 1024) + j.val, ht⟩ ⟨b.val % 1024, hr⟩).trans ?_
  unfold RbfSums.stepSum
  refine Finset.sum_congr rfl fun k _ => ?_
  unfold RbfBody.term
  have eq : qrow ⟨25 * (b.val / 1024) + j.val, ht⟩ ⟨b.val % 1024, hr⟩ = b :=
    Fin.ext (by show 1024 * ((25 * (b.val / 1024) + j.val) / 25) + b.val % 1024 = b.val; omega)
  have es : srow ⟨25 * (b.val / 1024) + j.val, ht⟩ k = BlockSum.pos 25 2048 j k :=
    Fin.ext (by show 2048 * ((25 * (b.val / 1024) + j.val) % 25) + k.val = j.val * 2048 + k.val; omega)
  rw [weight_entry, setNorm_entry, queryNorm_entry, dot_entry, eq, es]

/-- THE TWO RESULTS AGREE, entry by entry, when the queries and the reference set are real. -/
theorem result_eq (c : Dev nD) (hx : ∀ i, ∃ r : ℝ, X m c i = (r : EReal)) (hd : ∀ i, ∃ r : ℝ, D m c i = (r : EReal)) :
    RbfRun.tail (RbfSums.result m c) (B m c)
      = Cert.ReferenceIdeal.Read.val_main_v24 (F := Ideal) (X m c) (D m c) (L m c) (M m c) (B m c) := by
  funext i
  obtain ⟨b, rfl⟩ : ∃ b : Fin 2048, i = ix1 b := ⟨i 0, eq_ix1 i⟩
  rw [RbfRun.tail_apply, Cert.ReferenceIdeal.RbfRef.result_apply, RbfSums.result_apply, rowTotal_eq]
  refine congrArg (fun z => Ideal.tanh (z + B m c (ix1 (0 : Fin 1)))) ?_
  have hW : ∀ (n : Fin (25 * 2048)) (h : n.val < 50000), Wp m c n = L m c (ix1 ⟨n.val, h⟩) * M m c (ix1 ⟨n.val, h⟩) :=
    fun n h => paddedRow_inside (mulf (L m c) (M m c)) n h
  have hW0 : ∀ n : Fin (25 * 2048), ¬ n.val < 50000 → Wp m c n = 0 :=
    fun n h => paddedRow_outside (mulf (L m c) (M m c)) n h
  have hDp : ∀ (n : Fin (25 * 2048)) (h : n.val < 50000) (q : Fin 512), Dp m c n q = D m c (ix2 (⟨n.val, h⟩ : Fin 50000) q) :=
    fun n h q => paddedSet_inside (D m c) n h q
  have hHp : ∀ (n : Fin (25 * 2048)) (h : n.val < 50000), Hp m c n = Ideal.ofBits .f32 0x3F000000#32
      * (0 + ∑ q : Fin 512, D m c (ix2 (⟨n.val, h⟩ : Fin 50000) q) * D m c (ix2 (⟨n.val, h⟩ : Fin 50000) q)) :=
    fun n h => (paddedRow_inside (halfNormVec (F := Ideal) (D m c)) n h).trans (halfNormVec_apply (D m c) ⟨n.val, h⟩)
  exact Cert.Rbf.Math.score_eq (N := 50000) (K := 512) (nb := 25) (bs := 2048)
    (Ideal.ofBits .f32 0x3F000000#32) (Ideal.ofBits .f32 0x40000000#32)
    Cert.Rbf.Math.ofBits_half Cert.Rbf.Math.ofBits_two (Wp m c) (Dp m c) (Hp m c)
    (fun n => L m c (ix1 n) * M m c (ix1 n)) (fun n q => D m c (ix2 n q)) (fun q => X m c (ix2 b q))
    hW hW0 hDp hHp (fun q => hx (ix2 b q)) (fun n q => hd (ix2 n q)) (by norm_num)

end Cert.KernelIdeal.RbfBridge

end
-- ==== Proof.LibRealScalars.lean ====
/-
  Scalar facts on the extended reals at real arguments.

  What a few float words denote (1.0, -0.5, +inf); the reciprocal square root and the power -1/2 of a positive real,
  which are the same number 1/√x; a comparison's one-bit answer read back as the inequality it tested; and the two
  readings a finiteness-and-sign precondition needs entry by entry: an extended real whose absolute value max x (-x)
  tests below +∞ is a real number, and one that tests at least the zero word is nonnegative.
-/
import Idealize.ShloMosaic.PureOps.Ideal
import Idealize.ShloMosaic.PureOps.Ideal.Laws
import proofs.«109297_j51462298140953_2_alg».proof.Proof.LibRealSums

noncomputable section

namespace Cert.Lib.RealScalars

open Idealize.ShloMosaic Cert.Lib

/-- The word of 1.0 denotes the real 1. -/
theorem ofBits_one : Ideal.ofBits .f32 0x3F800000#32 = ((1 : ℝ) : EReal) := by
  simp [Ideal.ofBits, Ideal.ieee, -EReal.coe_mul]; norm_num

/-- The word of -0.5 denotes the real -1/2. -/
theorem ofBits_neg_half : Ideal.ofBits .f32 0xBF000000#32 = ((-(1 / 2) : ℝ) : EReal) := by
  simp [Ideal.ofBits, Ideal.ieee, -EReal.coe_mul]; norm_num

/-- The word of +inf denotes +∞. -/
theorem ofBits_inf : Ideal.ofBits .f32 0x7F800000#32 = ⊤ := by
  simp [Ideal.ofBits, Ideal.ieee]

/-- The reciprocal square root of a positive real. -/
theorem rsqrt_pos (x : ℝ) (hx : 0 < x) : Ideal.rsqrt (x : EReal) = (((Real.sqrt x)⁻¹ : ℝ) : EReal) := by
  show (if x < 0 then (⊥ : EReal) else if x = 0 then ⊤ else (((Real.sqrt x)⁻¹ : ℝ) : EReal)) = _
  rw [if_neg (not_lt.mpr hx.le), if_neg hx.ne']

/-- A positive real to the power -1/2 is the reciprocal of its square root. -/
theorem pow_neg_half (x : ℝ) (hx : 0 < x) :
    Ideal.pow (x : EReal) ((-(1 / 2) : ℝ) : EReal) = (((Real.sqrt x)⁻¹ : ℝ) : EReal) := by
  show ((Real.rpow x (-(1 / 2)) : ℝ) : EReal) = _
  congr 1
  show x ^ (-(1 / 2) : ℝ) = _
  rw [Real.rpow_neg hx.le, Real.sqrt_eq_rpow]

/-- A positive real is greater than zero, as the one-bit answer of the comparison. -/
theorem cmp_ogt_pos (x : ℝ) (hx : 0 < x) : Ideal.cmp .ogt (x : EReal) 0 = 1#1 := by
  show BitVec.ofBool (decide ((0 : EReal) < (x : EReal))) = 1#1
  rw [decide_eq_true (by exact_mod_cast hx)]
  rfl

/-- A one-bit answer that is 1 came from a true test. -/
theorem of_ofBool_eq_one {b : Bool} (h : BitVec.ofBool b = 1#1) : b = true := by
  cases b
  · exact absurd h (by decide)
  · rfl

/-- An entry whose absolute value tests below +∞ is a real number. -/
theorem real_of_abs_lt (x : EReal) (h : Ideal.cmp .olt (max x (-x)) (Ideal.ofBits .f32 0x7F800000#32) = 1#1) :
    ∃ r : ℝ, x = (r : EReal) := by
  have h1 : decide (max x (-x) < Ideal.ofBits .f32 0x7F800000#32) = true := of_ofBool_eq_one h
  rw [ofBits_inf] at h1
  exact RealSums.exists_real_of_max_neg_lt_top (of_decide_eq_true h1)

/-- An entry that tests at least zero is nonnegative. -/
theorem nonneg_of_ge (x : EReal) (h : Ideal.cmp .oge x (Ideal.ofBits .f32 0x00000000#32) = 1#1) : 0 ≤ x := by
  have h1 : decide (Ideal.ofBits .f32 0x00000000#32 ≤ x) = true := of_ofBool_eq_one h
  rw [Ideal.ofBits_zero_f32] at h1
  exact of_decide_eq_true h1

end Cert.Lib.RealScalars

end
-- ==== Proof.RbfFinite.lean ====
/-
  What the precondition gives: every entry of the queries and of the reference set is a real number.

  The precondition is the conjunction, over the five arguments, of "every entry has absolute value below +inf".  Taken
  apart conjunct by conjunct, the first two say that no entry of the queries or of the reference set is an infinity.
-/
import proofs.«109297_j51462298140953_2_alg».proof.Pre_finite_inputs
import proofs.«109297_j51462298140953_2_alg».proof.Proof.Gen.Pre_finite_inputs
import proofs.«109297_j51462298140953_2_alg».proof.Proof.LibRealScalars
import Idealize.ShloMosaic.Lib.ReduceAll
import Idealize.ShloMosaic.Lib.Affine
import Idealize.ShloMosaic.Lib.ValueIdx

noncomputable section

namespace Cert.Pre_finite_inputs.RbfFinite

open Cert.Pre_finite_inputs Idealize.ShloMosaic Cert.Lib

instance : Subsingleton S_.Idx := ⟨fun a b => funext fun d => d.elim0⟩

theorem reals_of_pre (a0 : FVec Ideal S2048x512 .f32) (a1 : FVec Ideal S50000x512 .f32) (a2 a3 : FVec Ideal S50000 .f32)
    (a4 : FVec Ideal S1 .f32) (h : fn (F := Ideal) a0 a1 a2 a3 a4 = fun _ => 1#1) :
    (∀ i, ∃ r : ℝ, a0 i = (r : EReal)) ∧ (∀ i, ∃ r : ℝ, a1 i = (r : EReal)) := by
  have h0 := congrFun h ValueIdx.ix0
  dsimp only [fn, fn_part1] at h0
  have s1 := IntOp.andi_eq_one.1 h0
  have s2 := IntOp.andi_eq_one.1 s1.1
  have s3 := IntOp.andi_eq_one.1 s2.1
  have s4 := IntOp.andi_eq_one.1 s3.1
  refine ⟨fun i => ?_, fun i => ?_⟩
  · exact RealScalars.real_of_abs_lt (a0 i) (Host.reduce_andi_all _ _ _ _ ValueIdx.ix0 s4.1 i)
  · exact RealScalars.real_of_abs_lt (a1 i) (Host.reduce_andi_all _ _ _ _ ValueIdx.ix0 s4.2 i)

end Cert.Pre_finite_inputs.RbfFinite

end
-- ==== Proof.lean ====
/-
  A Gaussian-kernel classifier score, computed by a tiled kernel and by a plain reference: the two are the same
  vector on the extended reals when every input entry is finite.

  For 2048 queries x_b and 50000 reference rows d_n of 512 features, weights w_n = label_n * multiplier_n and a bias, both
  programs return  tanh( sum over n of  w_n * exp( -|x_b - d_n|^2 / 2 ) + bias ),  the squared distance expanded as
  |x_b|^2 + |d_n|^2 - 2 <x_b, d_n>.  The reference forms that expression entry by entry and divides by 2.  The kernel
  program precomputes 0.5|x_b|^2 and 0.5|d_n|^2, pads the reference rows with zero rows of weight zero up to 25 blocks
  of 2048, and on a 2 x 25 grid adds, block after block, the terms  w_n * exp( <x_b, d_n> - 0.5|x_b|^2 - 0.5|d_n|^2 )  into
  running row sums that the last step of each grid row writes out; the bias and the hyperbolic tangent follow.

  The two exponents are the same real number when the entries of x and d are real (that is where the precondition is
  used: the identity c - a/2 - b/2 = -((a + b) - 2c)/2 fails at infinities); a padded term is zero times something,
  hence zero; and regrouping the sum into blocks uses only commutativity and associativity of addition.  The three
  frame claims are the generated frame of each kernel program and the reference's run with the result dropped; the
  idealization rewrote nothing.
-/
import proofs.«109297_j51462298140953_2_alg».proof.Defs
import proofs.«109297_j51462298140953_2_alg».proof.Proof.Gen.Kernel
import proofs.«109297_j51462298140953_2_alg».proof.Proof.Gen.Kernel.Skeleton
import proofs.«109297_j51462298140953_2_alg».proof.Proof.Gen.Kernel.Launch
import proofs.«109297_j51462298140953_2_alg».proof.Proof.Gen.Kernel.Points
import proofs.«109297_j51462298140953_2_alg».proof.Proof.Gen.Kernel.Frame
import proofs.«109297_j51462298140953_2_alg».proof.Proof.Gen.KernelIdeal
import proofs.«109297_j51462298140953_2_alg».proof.Proof.Gen.KernelIdeal.Skeleton
import proofs.«109297_j51462298140953_2_alg».proof.Proof.Gen.KernelIdeal.Launch
import proofs.«109297_j51462298140953_2_alg».proof.Proof.Gen.KernelIdeal.Points
import proofs.«109297_j51462298140953_2_alg».proof.Proof.Gen.KernelIdeal.Frame
import proofs.«109297_j51462298140953_2_alg».proof.Proof.Gen.ReferenceIdeal
import proofs.«109297_j51462298140953_2_alg».proof.Proof.Gen.Pre_finite_inputs
import proofs.«109297_j51462298140953_2_alg».proof.Proof.Gen.ReferenceIdeal.Run
import proofs.«109297_j51462298140953_2_alg».proof.Proof.Gen.ReferenceIdeal.Read
import proofs.«109297_j51462298140953_2_alg».proof.Proof.RbfRun
import proofs.«109297_j51462298140953_2_alg».proof.Proof.RbfBridge
import proofs.«109297_j51462298140953_2_alg».proof.Proof.RbfFinite
import Idealize.ShloMosaic.Adequacy
import Idealize.ShloMosaic.Init

noncomputable section

namespace Cert.Proof

open Idealize.ShloMosaic Idealize.SL.Sem

/-- The word-level kernel program runs and leaves its arguments as they were: its generated frame. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the same result vector: the kernel program's
    run read back, the reference's generated run, and the entry-by-entry equality of the two vectors under the
    precondition. -/
theorem algebraic : Cert.algebraic_KernelIdeal_ReferenceIdeal := by
  intro m ρ m' ρ' hpre hagree
  refine ⟨fun c => Cert.KernelIdeal.RbfRun.tail (Cert.KernelIdeal.RbfSums.result m c) (Cert.KernelIdeal.RbfBridge.B m c),
    Cert.KernelIdeal.RbfRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1,
    (hagree c).2.2.2.2]
  obtain ⟨hx, hd⟩ := Cert.Pre_finite_inputs.RbfFinite.reals_of_pre _ _ _ _ _ (hpre c)
  exact (Cert.KernelIdeal.RbfBridge.result_eq m c hx hd).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
